-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x4 : Shape := ⟨2, ![1048576, 4]⟩
abbrev S4x128 : Shape := ⟨2, ![4, 128]⟩
abbrev S1x128 : Shape := ⟨2, ![1, 128]⟩
abbrev S128x128 : Shape := ⟨2, ![128, 128]⟩
abbrev S_ : Shape := ⟨0, ![]⟩

class Facts : Prop where
  bcast_S_S1048576x4 : S_.BroadcastsInDim S1048576x4 (![] : Fin 0 → Fin S1048576x4.rank)
  reducesTo_S1048576x4_S_d0_1 : S1048576x4.ReducesTo [0, 1] S_
  h_S_ : 0 < S_.numel
  bcast_S_S4x128 : S_.BroadcastsInDim S4x128 (![] : Fin 0 → Fin S4x128.rank)
  reducesTo_S4x128_S_d0_1 : S4x128.ReducesTo [0, 1] S_
  bcast_S_S1x128 : S_.BroadcastsInDim S1x128 (![] : Fin 0 → Fin S1x128.rank)
  reducesTo_S1x128_S_d0_1 : S1x128.ReducesTo [0, 1] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg4 : FVec F S1x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S1x128 .f32 := Host.absf main_arg4
  let main_cst_6 : FVec F S_ .f32 := constant S_ .f32 0x7F800000#32
  let main_v20 : FVec F S1x128 .f32 := broadcastInDim S1x128 ![] bcast_S_S1x128 main_cst_6
  let main_v21 : IVec S1x128 1 := cmpf .olt main_v19 main_v20
  let main_c_7 : IVec S_ 1 := constantI S_ 1 1#1
  let main_v22 : IVec S_ 1 := (fun x v => Host.reduce IntOp.andi x v reducesTo_S1x128_S_d0_1 h_S_) main_v21 main_c_7
  let main_v23 : IVec S_ 1 := andi main_v18 main_v22
  main_v23

def fn {F : FTy → Type} [FloatOps F] (main_arg0 : FVec F S1048576x4 .f32) (main_arg1 : FVec F S4x128 .f32) (main_arg2 : FVec F S1x128 .f32) (main_arg3 : FVec F S128x128 .f32) (main_arg4 : FVec F S1x128 .f32) : IVec S_ 1 :=
  let main_v0 : FVec F S1048576x4 .f32 := Host.absf main_arg0
  let main_cst : FVec F S_ .f32 := constant S_ .f32 0x7F800000#32
  let main_v1 : FVec F S1048576x4 .f32 := broadcastInDim S1048576x4 ![] bcast_S_S1048576x4 main_cst
  let main_v2 : IVec S1048576x4 1 := cmpf .olt main_v0 main_v1
  let main_c : IVec S_ 1 := constantI S_ 1 1#1
  let main_v3 : IVec S_ 1 := (fun x v => Host.reduce IntOp.andi x v reducesTo_S1048576x4_S_d0_1 h_S_) main_v2 main_c
  let main_v4 : FVec F S4x128 .f32 := Host.absf main_arg1
  let main_cst_0 : FVec F S_ .f32 := constant S_ .f32 0x7F800000#32
  let main_v5 : FVec F S4x128 .f32 := broadcastInDim S4x128 ![] bcast_S_S4x128 main_cst_0
  let main_v6 : IVec S4x128 1 := cmpf .olt main_v4 main_v5
  let main_c_1 : IVec S_ 1 := constantI S_ 1 1#1
  let main_v7 : IVec S_ 1 := (fun x v => Host.reduce IntOp.andi x v reducesTo_S4x128_S_d0_1 h_S_) main_v6 main_c_1
  let main_v8 : IVec S_ 1 := andi main_v3 main_v7
  let main_v9 : FVec F S1x128 .f32 := Host.absf main_arg2
  let main_cst_2 : FVec F S_ .f32 := constant S_ .f32 0x7F800000#32
  let main_v10 : FVec F S1x128 .f32 := broadcastInDim S1x128 ![] bcast_S_S1x128 main_cst_2
  let main_v11 : IVec S1x128 1 := cmpf .olt main_v9 main_v10
  let main_c_3 : IVec S_ 1 := constantI S_ 1 1#1
  let main_v12 : IVec S_ 1 := (fun x v => Host.reduce IntOp.andi x v reducesTo_S1x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_v13 main_v16
-- ==== Kernel.lean ====
abbrev S1048576x4 : Shape := ⟨2, ![1048576, 4]⟩
abbrev S4x128 : Shape := ⟨2, ![4, 128]⟩
abbrev S1x128 : Shape := ⟨2, ![1, 128]⟩
abbrev S128x128 : Shape := ⟨2, ![128, 128]⟩
abbrev S4x1048576 : Shape := ⟨2, ![4, 1048576]⟩
abbrev S5x128 : Shape := ⟨2, ![5, 128]⟩
abbrev S128x2 : Shape := ⟨2, ![128, 2]⟩
abbrev S1x2 : Shape := ⟨2, ![1, 2]⟩
abbrev S2x1 : Shape := ⟨2, ![2, 1]⟩
abbrev S2x1048576 : Shape := ⟨2, ![2, 1048576]⟩
abbrev S4x65536 : Shape := ⟨2, ![4, 65536]⟩
abbrev S2x65536 : Shape := ⟨2, ![2, 65536]⟩
abbrev S1x65536 : Shape := ⟨2, ![1, 65536]⟩
abbrev S5x65536 : Shape := ⟨2, ![5, 65536]⟩
abbrev S128x65536 : Shape := ⟨2, ![128, 65536]⟩
abbrev S1048576x2 : Shape := ⟨2, ![1048576, 2]⟩

abbrev nBuf : Space → Nat
  | .hbm => 12
  | .vmem => 7
  | .smem => 0
  | _ => 0

abbrev bufTy : (tb : Table) → Fin (tcTables nBuf tb) → BufTy
  | .hbm, ⟨0, _⟩ => ⟨S1048576x4, .f32⟩
  | .hbm, ⟨1, _⟩ => ⟨S4x128, .f32⟩
  | .hbm, ⟨2, _⟩ => ⟨S1x128, .f32⟩
  | .hbm, ⟨3, _⟩ => ⟨S128x128, .f32⟩
  | .hbm, ⟨4, _⟩ => ⟨S1x128, .f32⟩
  | .hbm, ⟨5, _⟩ => ⟨S4x1048576, .f32⟩
  | .hbm, ⟨6, _⟩ => ⟨S5x128, .f32⟩
  | .hbm, ⟨7, _⟩ => ⟨S128x2, .f32⟩
  | .hbm, ⟨8, _⟩ => ⟨S1x2, .f32⟩
  | .hbm, ⟨9, _⟩ => ⟨S2x1, .f32⟩
  | .hbm, ⟨10, _⟩ => ⟨S2x1048576, .f32⟩
  | .hbm, ⟨11, _⟩ => ⟨S1048576x2, .f32⟩
  | .local _ .vmem, ⟨0, _⟩ => ⟨S4x65536, .f32⟩
  | .local _ .vmem, ⟨1, _⟩ => ⟨S4x65536, .f32⟩
  | .local _ .vmem, ⟨2, _⟩ => ⟨S5x128, .f32⟩
  | .local _ .vmem, ⟨3, _⟩ => ⟨S128x2, .f32⟩
  | .local _ .vmem, ⟨4, _⟩ => ⟨S2x1, .f32⟩
  | .local _ .vmem, ⟨5, _⟩ => ⟨S2x65536, .f32⟩
  | .local _ .vmem, ⟨6, _⟩ => ⟨S2x65536, .f32⟩
  | _, _ => ⟨S1048576x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4x65536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x2 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2x65536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S1048576x4_S4x1048576_1_0 : S1048576x4.Transposes [1, 0] S4x1048576
  concatenates_S4x128_S1x128_S5x128_d0 : Shape.Concatenates [S4x128, S1x128] S5x128 0
  slices_S128x128_S128x2_0_0 : S128x128.Slices ![0, 0] S128x2
  slices_S1x128_S1x2_0_0 : S1x128.Slices ![0, 0] S1x2
  transposes_S1x2_S2x1_1_0 : S1x2.Transposes [1, 0] S2x1
  inb_S4x65536_S4x65536_0_0 : ∀ a, (![0, 0] : Fin 2 → Nat) a + S4x65536.size a ≤ S4x65536.size a
  h_S4x65536 : 0 < S4x65536.numel
  shapeCasts_S4x65536_S4x65536 : S4x65536.ShapeCasts S4x65536
  concatenates_S4x65536_S1x65536_S5x65536_d0 : Shape.Concatenates [S4x65536, S1x65536] S5x65536 0
  inb_S5x128_S5x128_0_0 : ∀ a, (![0, 0] : Fin 2 → Nat) a + S5x128.size a ≤ S5x128.size a
  h_S5x128 : 0 < S5x128.numel
  shapeCasts_S5x128_S5x128 : S5x128.ShapeCasts S5x128
  inb_S128x2_S128x2_0_0 : ∀ a, (![0, 0] : Fin 2 → Nat) a + S128x2.size a ≤ S128x2.size a
  h_S128x2 : 0 < S128x2.numel
  shapeCasts_S128x2_S128x2 : S128x2.ShapeCasts S128x2
  inb_S2x1_S2x1_0_0 : ∀ a, (![0, 0] : Fin 2 → Nat) a + S2x1.size a ≤ S2x1.size a
  h_S2x1 : 0 < S2x1.numel
  shapeCasts_S2x1_S2x1 : S2x1.ShapeCasts S2x1
  broadcasts_S2x1_S2x65536 : S2x1.Broadcasts S2x65536
  inb_S2x65536_S2x65536_0_0 : ∀ a, (![0, 0] : Fin 2 → Nat) a + S2x65536.size a ≤ S2x65536.size a
  h_S2x65536 : 0 < S2x65536.numel
  transposes_S2x1048576_S1048576x2_1_0 : S2x1048576.Transposes [1, 0] S1048576x2
  dot_S5x128_S5x65536_S128x65536_0_0_1_1_n_n_wf : DotDims.WF S5x128 S5x65536 S128x65536 [0] [0] [1] [1] [] []
  dot_S128x2_S128x65536_S2x65536_0_0_1_1_n_n_wf : DotDims.WF S128x2 S128x65536 S2x65536 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x65536.size a ≤ S4x1048576.size a
  hwx0_0 : ∀ i : grid0.Coords, EltTy.bits .f32 = 32 ∨ (Rect.block (s := S4x1048576) S4x65536.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S5x128.size a ≤ S5x128.size a
  hwx0_1 : ∀ i : grid0.Coords, EltTy.bits .f32 = 32 ∨ (Rect.block (s := S5x128) S5x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x2.size a ≤ S128x2.size a
  hwx0_2 : ∀ i : grid0.Coords, EltTy.bits .f32 = 32 ∨ (Rect.block (s := S128x2) S128x2.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2x1.size a ≤ S2x1.size a
  hwx0_3 : ∀ i : grid0.Coords, EltTy.bits .f32 = 32 ∨ (Rect.block (s := S2x1) S2x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2x65536.size a ≤ S2x1048576.size a
  hwx0_4 : ∀ i : grid0.Coords, EltTy.bits .f32 = 32 ∨ (Rect.block (s := S2x1048576) S2x65536.size (cc0_transform_4 i) (hinb0_4 i)).WholeWords (EltTy.packing .f32)

variable [Facts₀]

def dot_S5x128_S5x65536_S128x65536_0_0_1_1_n_n : DotDims S5x128 S5x65536 S128x65536 where
  lhsContracting := [0]
  rhsContracting := [0]
  lhsNonContracting := [1]
  rhsNonContracting := [1]
  lhsBatch := []
  rhsBatch := []
  wf := dot_S5x128_S5x65536_S128x65536_0_0_1_1_n_n_wf
def dot_S128x2_S128x65536_S2x65536_0_0_1_1_n_n : DotDims S128x2 S128x65536 S2x65536 where
  lhsContracting := [0]
  rhsContracting := [0]
  lhsNonContracting := [1]
  rhsNonContracting := [1]
  lhsBatch := []
  rhsBatch := []
  wf := dot_S128x2_S128x65536_S2x65536_0_0_1_1_n_n_wf

abbrev win0_0 : Pipeline.Window sig grid0 :=
  Pipeline.Window.ofSpec (Memref.whole main_v0) S4x65536.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S5x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S128x2.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S2x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S2x65536.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1048576x4 : Shape := ⟨2, ![1048576, 4]⟩
abbrev S4x128 : Shape := ⟨2, ![4, 128]⟩
abbrev S1x128 : Shape := ⟨2, ![1, 128]⟩
abbrev S128x128 : Shape := ⟨2, ![128, 128]⟩
abbrev S1048576x128 : Shape := ⟨2, ![1048576, 128]⟩
abbrev S1048576x2 : Shape := ⟨2, ![1048576, 2]⟩
abbrev S512x4 : Shape := ⟨2, ![512, 4]⟩
abbrev S512x128 : Shape := ⟨2, ![512, 128]⟩
abbrev S512x1 : Shape := ⟨2, ![512, 1]⟩

abbrev nBuf : Space → Nat
  | .hbm => 7
  | .vmem => 8
  | .smem => 0
  | _ => 0

abbrev bufTy : (tb : Table) → Fin (tcTables nBuf tb) → BufTy
  | .hbm, ⟨0, _⟩ => ⟨S1048576x4, .f32⟩
  | .hbm, ⟨1, _⟩ => ⟨S4x128, .f32⟩
  | .hbm, ⟨2, _⟩ => ⟨S1x128, .f32⟩
  | .hbm, ⟨3, _⟩ => ⟨S128x128, .f32⟩
  | .hbm, ⟨4, _⟩ => ⟨S1x128, .f32⟩
  | .hbm, ⟨5, _⟩ => ⟨S1048576x128, .f32⟩
  | .hbm, ⟨6, _⟩ => ⟨S1048576x2, .f32⟩
  | .local _ .vmem, ⟨0, _⟩ => ⟨S512x4, .f32⟩
  | .local _ .vmem, ⟨1, _⟩ => ⟨S512x4, .f32⟩
  | .local _ .vmem, ⟨2, _⟩ => ⟨S4x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S512x128, .f32⟩
  | .local _ .vmem, ⟨7, _⟩ => ⟨S512x128, .f32⟩
  | _, _ => ⟨S1048576x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![2048], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S1048576x128_S1048576x2_0_0 : S1048576x128.Slices ![0, 0] S1048576x2
  inb_S512x4_S512x4_0_0 : ∀ a, (![0, 0] : Fin 2 → Nat) a + S512x4.size a ≤ S512x4.size a
  h_S512x4 : 0 < S512x4.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  slices_S512x4_o0_0_S512x1 : S512x4.Slices ![0, 0] S512x1
  inb_S4x128_S1x128_0_0 : ∀ a, (![0, 0] : Fin 2 → Nat) a + S1x128.size a ≤ S4x128.size a
  broadcasts_S512x1_S512x128 : S512x1.Broadcasts S512x128
  slices_S512x4_o0_1_S512x1 : S512x4.Slices ![0, 1] S512x1
  inb_S4x128_S1x128_1_0 : ∀ a, (![1, 0] : Fin 2 → Nat) a + S1x128.size a ≤ S4x128.size a
  slices_S512x4_o0_2_S512x1 : S512x4.Slices ![0, 2] S512x1
  inb_S4x128_S1x128_2_0 : ∀ a, (![2, 0] : Fin 2 → Nat) a + S1x128.size a ≤ S4x128.size a
  slices_S512x4_o0_3_S512x1 : S512x4.Slices ![0, 3] S512x1
  inb_S4x128_S1x128_3_0 : ∀ a, (![3, 0] : Fin 2 → Nat) a + S1x128.size a ≤ S4x128.size a
  inb_S128x128_S128x128_0_0 : ∀ a, (![0, 0] : Fin 2 → Nat) a + S128x128.size a ≤ S128x128.size a
  h_S128x128 : 0 < S128x128.numel
  inb_S512x128_S512x128_0_0 : ∀ a, (![0, 0] : Fin 2 → Nat) a + S512x128.size a ≤ S512x128.size a
  h_S512x128 : 0 < S512x128.numel
  dot_S512x128_S128x128_S512x128_1_0_0_1_n_n_wf : DotDims.WF S512x128 S128x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4.size a ≤ S1048576x4.size a
  hwx0_0 : ∀ i : grid0.Coords, EltTy.bits .f32 = 32 ∨ (Rect.block (s := S1048576x4) S512x4.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x128.size a ≤ S4x128.size a
  hwx0_1 : ∀ i : grid0.Coords, EltTy.bits .f32 = 32 ∨ (Rect.block (s := S4x128) S4x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x128.size a ≤ S1048576x128.size a
  hwx0_5 : ∀ i : grid0.Coords, EltTy.bits .f32 = 32 ∨ (Rect.block (s := S1048576x128) S512x128.size (cc0_transform_5 i) (hinb0_5 i)).WholeWords (EltTy.packing .f32)

variable [Facts₀]

def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf

abbrev win0_0 : Pipeline.Window sig grid0 :=
  Pipeline.Window.ofSpec (Memref.whole main_arg0) S512x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v0) S512x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== Proof.LibLeadDot.lean ====
/-
  A matrix product that contracts the LEADING axis of both operands, read at one entry, at the ideal values.

  Take a k×m matrix A and a k×n matrix B and dimension numbers that contract axis 0 of A against axis 0 of B,
  with no batch axis: the m×n product Aᵀ·B. A kernel's `tpu.matmul` into the zero accumulator then holds, at
  entry (a, b), the sum over the contracted coordinate c of A(c, a) · B(c, b) — in the extended reals, with no
  finiteness asked: it is that sum by definition once the contraction index is renamed by its one coordinate.

  The dimension record may be any record equal to `leadDims m k n` below; for a record written out with the
  lists [0] [0] [1] [1] [] [] the equality is `rfl`.
-/
import Idealize.ShloMosaic.PureOps.Ideal.Laws
import Idealize.ShloMosaic.Lib.ValueIdx

noncomputable section

open scoped BigOperators

namespace Cert.LeadDot

open Idealize.ShloMosaic Idealize.ShloMosaic.ValueIdx

/-- The dimension numbers `<[0], [0], [1], [1], [], []>`: k×m by k×n, both contracted on their leading axis. -/
def leadDims (m k n : Nat) : DotDims ⟨2, ![k, m]⟩ ⟨2, ![k, n]⟩ ⟨2, ![m, n]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

variable {m k n : Nat} {φ₁ φ₂ : FTy}

/-- The left operand's leading coordinate is the contraction coordinate. -/
theorem lhsIdx_lead_0 (j : (⟨2, ![m, n]⟩ : Shape).Idx) (q : (leadDims m k n).contr.Idx) :
    ((leadDims m k n).lhsIdx j q 0).val = (q ⟨0, Nat.one_pos⟩).val :=
  (leadDims m k n).lhsIdx_val_of_single rfl j q

/-- The left operand's second coordinate is the output's row. -/
theorem lhsIdx_lead_1 (j : (⟨2, ![m, n]⟩ : Shape).Idx) (q : (leadDims m k n).contr.Idx) :
    ((leadDims m k n).lhsIdx j q 1).val = (j 0).val := by
  unfold DotDims.lhsIdx
  rw [dif_neg (show ¬(1 : Fin 2) ∈ (leadDims m k n).lhsBatch from List.not_mem_nil),
    dif_pos (show (1 : Fin 2) ∈ (leadDims m k n).lhsNonContracting from List.mem_singleton.mpr rfl)]
  rfl

/-- The right operand's leading coordinate is the contraction coordinate. -/
theorem rhsIdx_lead_0 (j : (⟨2, ![m, n]⟩ : Shape).Idx) (q : (leadDims m k n).contr.Idx) :
    ((leadDims m k n).rhsIdx j q 0).val = (q ⟨0, Nat.one_pos⟩).val :=
  (leadDims m k n).rhsIdx_val_of_single rfl j q

/-- The right operand's second coordinate is the output's column. -/
theorem rhsIdx_lead_1 (j : (⟨2, ![m, n]⟩ : Shape).Idx) (q : (leadDims m k n).contr.Idx) :
    ((leadDims m k n).rhsIdx j q 1).val = (j 1).val := by
  unfold DotDims.rhsIdx
  rw [dif_neg (show ¬(1 : Fin 2) ∈ (leadDims m k n).rhsBatch from List.not_mem_nil),
    dif_pos (show (1 : Fin 2) ∈ (leadDims m k n).rhsNonContracting from List.mem_singleton.mpr rfl)]
  rfl

/-- At output entry (a, b) and contraction coordinate c the left operand is read at (c, a). -/
theorem lhsIdx_lead (a : Fin m) (b : Fin n) (c : Fin k) :
    (leadDims m k n).lhsIdx (ix2 a b) ((contrEquiv1 (leadDims m k n) k rfl rfl).symm c) = ix2 c a := by
  have hc := contrEquiv1_symm_val (leadDims m k n) k rfl rfl c
  funext ax
  apply Fin.ext
  match ax with
  | ⟨0, _⟩ => exact (lhsIdx_lead_0 _ _).trans hc
  | ⟨1, _⟩ => exact lhsIdx_lead_1 _ _

/-- At output entry (a, b) and contraction coordinate c the right operand is read at (c, b). -/
theorem rhsIdx_lead (a : Fin m) (b : Fin n) (c : Fin k) :
    (leadDims m k n).rhsIdx (ix2 a b) ((contrEquiv1 (leadDims m k n) k rfl rfl).symm c) = ix2 c b := by
  have hc := contrEquiv1_symm_val (leadDims m k n) k rfl rfl c
  funext ax
  apply Fin.ext
  match ax with
  | ⟨0, _⟩ => exact (rhsIdx_lead_0 _ _).trans hc
  | ⟨1, _⟩ => exact rhsIdx_lead_1 _ _

/-- The sum over the contraction index is the sum over its one coordinate. -/
theorem sum_contr_lead (A : (⟨2, ![k, m]⟩ : Shape).Idx → EReal) (B : (⟨2, ![k, n]⟩ : Shape).Idx → EReal)
    (a : Fin m) (b : Fin n) :
    (∑ q : (leadDims m k n).contr.Idx,
        A ((leadDims m k n).lhsIdx (ix2 a b) q) * B ((leadDims m k n).rhsIdx (ix2 a b) q))
      = ∑ c : Fin k, A (ix2 c a) * B (ix2 c b) := by
  rw [← Equiv.sum_comp (contrEquiv1 (leadDims m k n) k rfl rfl).symm]
  refine Finset.sum_congr rfl fun c _ => ?_
  rw [lhsIdx_lead, rhsIdx_lead]

/-- A `tpu.matmul` into the zero accumulator, contracting the leading axis of both operands, at entry (a, b):
    the sum over c of A(c, a) · B(c, b). -/
theorem matmul_zero_apply (D : DotDims ⟨2, ![k, m]⟩ ⟨2, ![k, n]⟩ ⟨2, ![m, n]⟩) (hD : D = leadDims m k n)
    (prec : Option ContractPrecision) (A : FVec Ideal ⟨2, ![k, m]⟩ φ₁) (B : FVec Ideal ⟨2, ![k, n]⟩ φ₂)
    (a : Fin m) (b : Fin n) :
    FloatOps.matmul D prec A B (constant (F := Ideal) ⟨2, ![m, n]⟩ .f32 0x00000000#32) (ix2 a b)
      = ∑ c : Fin k, A (ix2 c a) * B (ix2 c b) := by
  subst hD
  rw [Ideal.matmul_constant_zero_apply]
  exact sum_contr_lead A B a b

end Cert.LeadDot

end
-- ==== Proof.Mlp.lean ====
/-
  A two-layer perceptron with four inputs, 128 hidden units and a rectified hidden layer, over the extended reals.

  On one sample with inputs x₀ … x₃ hidden unit j computes max(b1ⱼ + x₀·w1₀ⱼ + x₁·w1₁ⱼ + x₂·w1₂ⱼ + x₃·w1₃ⱼ, 0)
  and output n is the sum over j of that times w2ⱼₙ, plus b2ₙ. Two arrangements of it are compared here:

  * sample-major (`logit`): samples are rows; the first layer is the bias plus four products added one after the
    other, the second a sum of hidden · weight;
  * unit-major (`logitT`): samples are columns; the first layer is ONE sum over five coordinates of
    weight · input, the fifth input being the constant 1 and the fifth weight row the bias, the second layer a sum of
    weight · hidden.

  They agree on all extended reals: only commutativity and associativity of + and ·, and x · 1 = x, are used, so
  nothing has to be finite.
-/
import Idealize.ShloMosaic.PureOps.Ideal.Laws
import Idealize.ShloMosaic.Lib.ValueIdx
import Idealize.ShloMosaic.Lib.Pipeline.Value
import Idealize.ShloMosaic.Lib.ValueLayout

noncomputable section

open scoped BigOperators

namespace Cert.Mlp

open Idealize.ShloMosaic Idealize.ShloMosaic.ValueIdx

/-- The first layer before the clamp, as the sample-major program adds it up: the bias, then the four products. -/
def pre (x0 x1 x2 x3 w0 w1 w2 w3 c : EReal) : EReal := (((c + x0 * w0) + x1 * w1) + x2 * w2) + x3 * w3

/-- A sum over five coordinates of weight · input whose fifth input is 1 is that bias-first sum, the fifth weight
    the bias. -/
theorem sum_five (A X : Fin 5 → EReal) (hX : X 4 = 1) :
    ∑ k : Fin 5, A k * X k = pre (X 0) (X 1) (X 2) (X 3) (A 0) (A 1) (A 2) (A 3) (A 4) := by
  rw [Fin.sum_univ_five, hX, mul_one, mul_comm (A 0), mul_comm (A 1), mul_comm (A 2), mul_comm (A 3)]
  unfold pre
  abel

variable {B : Nat}

/-- Hidden unit j on sample b, samples as rows. -/
def hiddenUnit (x : FVec Ideal ⟨2, ![B, 4]⟩ .f32) (w1 : FVec Ideal ⟨2, ![4, 128]⟩ .f32) (b1 : FVec Ideal ⟨2, ![1, 128]⟩ .f32)
    (b : Fin B) (j : Fin 128) : EReal :=
  max (pre (x (ix2 b (0 : Fin 4))) (x (ix2 b (1 : Fin 4))) (x (ix2 b (2 : Fin 4))) (x (ix2 b (3 : Fin 4)))
      (w1 (ix2 (0 : Fin 4) j)) (w1 (ix2 (1 : Fin 4) j)) (w1 (ix2 (2 : Fin 4) j)) (w1 (ix2 (3 : Fin 4) j)) (b1 (ix2 (0 : Fin 1) j)))
    (Ideal.ofBits .f32 0x00000000#32)

/-- Output n on sample b, samples as rows, the second layer 128 wide. -/
def logit (x : FVec Ideal ⟨2, ![B, 4]⟩ .f32) (w1 : FVec Ideal ⟨2, ![4, 128]⟩ .f32) (b1 : FVec Ideal ⟨2, ![1, 128]⟩ .f32)
    (w2 : FVec Ideal ⟨2, ![128, 128]⟩ .f32) (b2 : FVec Ideal ⟨2, ![1, 128]⟩ .f32) (b : Fin B) (n : Fin 128) : EReal :=
  (∑ j : Fin 128, hiddenUnit x w1 b1 b j * w2 (ix2 j n)) + b2 (ix2 (0 : Fin 1) n)

/-- A sample's outputs depend on that sample's row of the input and on the weights' entries alone: operands that agree
    there give the same output n. -/
theorem logit_congr {B' : Nat} (x : FVec Ideal ⟨2, ![B, 4]⟩ .f32) (x' : FVec Ideal ⟨2, ![B', 4]⟩ .f32)
    (w1 w1' : FVec Ideal ⟨2, ![4, 128]⟩ .f32) (b1 b1' : FVec Ideal ⟨2, ![1, 128]⟩ .f32)
    (w2 w2' : FVec Ideal ⟨2, ![128, 128]⟩ .f32) (b2 b2' : FVec Ideal ⟨2, ![1, 128]⟩ .f32) (b : Fin B) (b' : Fin B') (n : Fin 128)
    (hx : ∀ k : Fin 4, x (ix2 b k) = x' (ix2 b' k)) (hw1 : ∀ (k : Fin 4) (j : Fin 128), w1 (ix2 k j) = w1' (ix2 k j))
    (hb1 : ∀ j : Fin 128, b1 (ix2 (0 : Fin 1) j) = b1' (ix2 (0 : Fin 1) j))
    (hw2 : ∀ j : Fin 128, w2 (ix2 j n) = w2' (ix2 j n)) (hb2 : b2 (ix2 (0 : Fin 1) n) = b2' (ix2 (0 : Fin 1) n)) :
    logit x w1 b1 w2 b2 b n = logit x' w1' b1' w2' b2' b' n := by
  unfold logit hiddenUnit
  rw [hb2, hx 0, hx 1, hx 2, hx 3]
  refine congrArg (· + _) (Finset.sum_congr rfl fun j _ => ?_)
  rw [hw1 0 j, hw1 1 j, hw1 2 j, hw1 3 j, hb1 j, hw2 j]

/-- Output a on sample l, samples as columns: the 5×128 first-layer matrix carries the bias in its fifth row, the
    input's fifth coordinate is 1; the second layer is 128×2 and its bias a 2×1 column. -/
def logitT (xt : FVec Ideal ⟨2, ![4, B]⟩ .f32) (w1a : FVec Ideal ⟨2, ![5, 128]⟩ .f32)
    (w2s : FVec Ideal ⟨2, ![128, 2]⟩ .f32) (b2t : FVec Ideal ⟨2, ![2, 1]⟩ .f32) (a : Fin 2) (l : Fin B) : EReal :=
  (∑ h : Fin 128, w2s (ix2 h a) *
      max (pre (xt (ix2 (0 : Fin 4) l)) (xt (ix2 (1 : Fin 4) l)) (xt (ix2 (2 : Fin 4) l)) (xt (ix2 (3 : Fin 4) l))
          (w1a (ix2 (0 : Fin 5) h)) (w1a (ix2 (1 : Fin 5) h)) (w1a (ix2 (2 : Fin 5) h)) (w1a (ix2 (3 : Fin 5) h)) (w1a (ix2 (4 : Fin 5) h)))
        (Ideal.ofBits .f32 0x00000000#32))
    + b2t (ix2 a (0 : Fin 1))

/-- The two arrangements agree when the unit-major operands are the sample-major ones re-laid: column l' of the one
    input is row l of the other, the bias row is appended under the first-layer weights, column a of the second-layer
    matrix and entry a of its bias column are column n and entry n of the wide ones. -/
theorem logitT_eq_logit {B' : Nat} (x : FVec Ideal ⟨2, ![B, 4]⟩ .f32) (w1 : FVec Ideal ⟨2, ![4, 128]⟩ .f32)
    (b1 : FVec Ideal ⟨2, ![1, 128]⟩ .f32) (w2 : FVec Ideal ⟨2, ![128, 128]⟩ .f32) (b2 : FVec Ideal ⟨2, ![1, 128]⟩ .f32)
    (xt : FVec Ideal ⟨2, ![4, B']⟩ .f32) (w1a : FVec Ideal ⟨2, ![5, 128]⟩ .f32)
    (w2s : FVec Ideal ⟨2, ![128, 2]⟩ .f32) (b2t : FVec Ideal ⟨2, ![2, 1]⟩ .f32) (a : Fin 2) (n : Fin 128)
    (l : Fin B) (l' : Fin B')
    (hx : ∀ k : Fin 4, xt (ix2 k l') = x (ix2 l k))
    (hw : ∀ (k : Fin 4) (k' : Fin 5) (h : Fin 128), k'.val = k.val → w1a (ix2 k' h) = w1 (ix2 k h))
    (hb : ∀ h : Fin 128, w1a (ix2 (4 : Fin 5) h) = b1 (ix2 (0 : Fin 1) h))
    (hw2 : ∀ h : Fin 128, w2s (ix2 h a) = w2 (ix2 h n))
    (hb2 : b2t (ix2 a (0 : Fin 1)) = b2 (ix2 (0 : Fin 1) n)) :
    logitT xt w1a w2s b2t a l' = logit x w1 b1 w2 b2 l n := by
  unfold logitT logit hiddenUnit
  rw [hb2, hx 0, hx 1, hx 2, hx 3]
  refine congrArg (· + _) (Finset.sum_congr rfl fun h _ => ?_)
  rw [hw2 h, hw 0 0 h rfl, hw 1 1 h rfl, hw 2 2 h rfl, hw 3 3 h rfl, hb h, mul_comm]

/-! ## The whole batch: the result array and its two re-laid forms -/

section Arrays

variable (x : FVec Ideal ⟨2, ![B, 4]⟩ .f32) (w1 : FVec Ideal ⟨2, ![4, 128]⟩ .f32) (b1 : FVec Ideal ⟨2, ![1, 128]⟩ .f32)
  (w2 : FVec Ideal ⟨2, ![128, 128]⟩ .f32) (b2 : FVec Ideal ⟨2, ![1, 128]⟩ .f32)

/-- THE RESULT: the first two outputs of every sample, samples as rows. -/
def logits : FVec Ideal ⟨2, ![B, 2]⟩ .f32 :=
  fun i => logit x w1 b1 w2 b2 (i 0) (Fin.castLE (by decide : 2 ≤ 128) (i 1))

/-- All 128 outputs of every sample, samples as rows. -/
def logitsWide : FVec Ideal ⟨2, ![B, 128]⟩ .f32 := fun i => logit x w1 b1 w2 b2 (i 0) (i 1)

/-- The first two outputs of every sample, samples as columns. -/
def logitsT : FVec Ideal ⟨2, ![2, B]⟩ .f32 :=
  fun i => logit x w1 b1 w2 b2 (i 1) (Fin.castLE (by decide : 2 ≤ 128) (i 0))

/-- The column-major outputs transposed are the result. -/
theorem transpose_logitsT (h : (⟨2, ![2, B]⟩ : Shape).Transposes [1, 0] ⟨2, ![B, 2]⟩) :
    transpose ⟨2, ![B, 2]⟩ [1, 0] (logitsT x w1 b1 w2 b2) h = logits x w1 b1 w2 b2 := by
  funext i
  obtain ⟨b, a, rfl⟩ : ∃ (b : Fin B) (a : Fin 2), i = ix2 b a := ⟨i 0, i 1, eq_ix2 i⟩
  exact transpose_ix2_apply _ h b a

/-- The first two columns of the wide outputs are the result. -/
theorem slice_logitsWide (h : (⟨2, ![B, 128]⟩ : Shape).Slices ![0, 0] ⟨2, ![B, 2]⟩) :
    extractStridedSlice ⟨2, ![B, 2]⟩ ![0, 0] (logitsWide x w1 b1 w2 b2) h = logits x w1 b1 w2 b2 := by
  funext i
  obtain ⟨b, a, rfl⟩ : ∃ (b : Fin B) (a : Fin 2), i = ix2 b a := ⟨i 0, i 1, eq_ix2 i⟩
  exact slice2_axis1_apply 0 _ h b a (Fin.castLE (by decide : 2 ≤ 128) a) (Nat.zero_add _).symm

end Arrays

end Cert.Mlp

end
-- ==== Proof.LibMatrixReads.lean ====
/-
  Three reads of a matrix at one entry that a row-tiled or column-tiled kernel body meets:

  * an a×1 column spread over b lanes (`vector.broadcast` of a keepdims column) reads the column's entry;
  * row k of a matrix loaded as a 1×n row (a `vector.load` through the unit-stride rectangle at offset (k, 0) of
    sizes (1, n)) reads the matrix at (k, j);
  * column k of a matrix cut out as an a×1 column (`vector.extract_strided_slice` at offset (0, k)) and spread over
    b lanes reads the matrix at (p, k).
-/
import Idealize.ShloMosaic.Lib.Pipeline.Value
import Idealize.ShloMosaic.Lib.Pipeline.FrameBody
import Idealize.ShloMosaic.Lib.ValueLayout
import Idealize.ShloMosaic.Lib.ValueIdx

noncomputable section

namespace Cert.MatrixReads

open Idealize.ShloMosaic Idealize.ShloMosaic.ValueIdx

variable {α : Type}

/-- An a×1 column spread over b lanes reads, at (p, c), the column's entry p. -/
theorem column_spread_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Row k of an n0×n1 matrix loaded as a 1×n1 row reads, at (0, j), the matrix at (k, j). -/
theorem row_load_apply {Val : EltTy → Type} {e : EltTy} {n0 n1 : ℕ} (X : (⟨2, ![n0, n1]⟩ : Shape).Idx → Val e) (k : Fin n0)
    (inb : ∀ a, (![k.val, 0] : Fin 2 → Nat) a + (![1, n1] : Fin 2 → Nat) a ≤ (⟨2, ![n0, n1]⟩ : Shape).size a)
    (j : Fin n1) :
    View.ld (Val := Val) X (Rect.unit (s := ⟨2, ![n0, n1]⟩) ![k.val, 0] ![1, n1] inb) (ix2 (0 : Fin 1) j) = X (ix2 k j) := by
  show X _ = X _
  refine congrArg X (funext fun ax => Fin.ext ?_)
  match ax with
  | ⟨0, _⟩ => show k.val + 1 * 0 = k.val; omega
  | ⟨1, _⟩ => show 0 + 1 * j.val = j.val; omega

/-- Column k of an a×n matrix cut out as an a×1 column and spread over b lanes reads, at (p, c), the matrix at (p, k). -/
theorem column_cut_spread_apply {a n b : ℕ} (X : (⟨2, ![a, n]⟩ : Shape).Idx → α) (o : ℕ) (k : Fin n) (hk : k.val = o)
    (hs : (⟨2, ![a, n]⟩ : Shape).Slices ![0, o] ⟨2, ![a, 1]⟩)
    (hb : (⟨2, ![a, 1]⟩ : Shape).Broadcasts ⟨2, ![a, b]⟩) (p : Fin a) (c : Fin b) :
    broadcastTo ⟨2, ![a, b]⟩ (extractStridedSlice ⟨2, ![a, 1]⟩ ![0, o] X hs) hb (ix2 p c) = X (ix2 p k) :=
  (column_spread_apply _ hb p c).trans (slice2_axis1_apply o X hs p (0 : Fin 1) k hk)

end Cert.MatrixReads

end
-- ==== Proof.KernelBody.lean ====
/-
  What the unit-major kernel body computes on one block of 65536 samples (columns), read at one entry.

  The body appends a row of ones under its 4×65536 input block, multiplies the 5×128 first-layer matrix (bias in the
  fifth row) into it contracting the leading axes, clamps at zero, multiplies the 128×2 second-layer matrix into
  that the same way and adds the 2×1 bias column along the lanes. At entry (a, l) that is `Mlp.logitT` of the four
  loaded blocks: the two products are plain sums at the ideal values, the appended row reads 1, and the sum over
  five coordinates is the bias-first sum of four products.
-/
import proofs.«111878_g2000403565215025_pallasbulk_1037_11_alg».proof.Proof.Gen.KernelIdeal.Skeleton
import proofs.«111878_g2000403565215025_pallasbulk_1037_11_alg».proof.Proof.LibLeadDot
import proofs.«111878_g2000403565215025_pallasbulk_1037_11_alg».proof.Proof.Mlp
import proofs.«111878_g2000403565215025_pallasbulk_1037_11_alg».proof.Proof.LibMatrixReads
import Idealize.ShloMosaic.Lib.Pipeline.Value
import Idealize.ShloMosaic.Lib.ValueLayout

noncomputable section

open scoped BigOperators

namespace Cert.KernelIdeal.Hand

open Idealize.ShloMosaic Idealize.ShloMosaic.ValueIdx Cert.KernelIdeal Cert.KernelIdeal.Gen Cert.Mlp

/-- The f32 pattern of 1.0 is the number one. -/
theorem one_f32 : Ideal.ofBits .f32 0x3F800000#32 = 1 := IdealRules.sign_bit.ideal_onePat .f32

/-- The input block with a row of ones appended, read at one of the block's own four rows. -/
theorem ones_under_top (x0 : FVec Ideal S4x65536 .f32) (hc : Shape.Concatenates [S4x65536, S1x65536] S5x65536 0)
    (k : Fin 4) (k' : Fin 5) (hk : k'.val = k.val) (l : Fin 65536) :
    concatenate S5x65536 0 [⟨S4x65536, x0⟩, ⟨S1x65536, broadcast S1x65536 (FloatOps.ofBits (F := Ideal) .f32 0x3F800000#32)⟩] hc
      (ix2 k' l) = x0 (ix2 k l) :=
  concatenate_pair_apply_left 0 x0 _ hc (ix2 k' l) rfl (ix2 k l) fun b =>
    match b with | ⟨0, _⟩ => hk.symm | ⟨1, _⟩ => rfl

/-- … and at the appended fifth row, where it reads one. -/
theorem ones_under_last (x0 : FVec Ideal S4x65536 .f32) (hc : Shape.Concatenates [S4x65536, S1x65536] S5x65536 0)
    (l : Fin 65536) :
    concatenate S5x65536 0 [⟨S4x65536, x0⟩, ⟨S1x65536, broadcast S1x65536 (FloatOps.ofBits (F := Ideal) .f32 0x3F800000#32)⟩] hc
      (ix2 (4 : Fin 5) l) = 1 := by
  refine (concatenate_pair_apply_right 0 x0 _ hc (ix2 (4 : Fin 5) l) rfl rfl (ix2 (0 : Fin 1) l) (fun b hb => ?_) rfl).trans one_f32
  match b with
  | ⟨0, _⟩ => exact absurd rfl hb
  | ⟨1, _⟩ => rfl

/-- THE BODY AT AN ENTRY: what the body stores at (a, l) is the perceptron's output a on column l of the loaded
    blocks, in the unit-major arrangement. -/
theorem pay_apply (x0 : Vec Ideal S4x65536 .f32) (x1 : Vec Ideal S5x128 .f32) (x2 : Vec Ideal S128x2 .f32)
    (x3 : Vec Ideal S2x1 .f32) (a : Fin 2) (l : Fin 65536) :
    k0_pay1 (F := Ideal) x0 x1 x2 x3 (ix2 a l) = logitT x0 x1 x2 x3 a l := by
  unfold k0_pay1 logitT
  simp only [matmul, shapeCast_self]
  rw [addf_apply, LeadDot.matmul_zero_apply dot_S128x2_S128x65536_S2x65536_0_0_1_1_n_n rfl none x2 _ a l,
    MatrixReads.column_spread_apply]
  refine congrArg (· + _) (Finset.sum_congr rfl fun h _ => ?_)
  rw [maximumf_apply, broadcast_apply,
    LeadDot.matmul_zero_apply dot_S5x128_S5x65536_S128x65536_0_0_1_1_n_n rfl none x1 _ h l,
    Mlp.sum_five (fun k => x1 (ix2 k h)) _ (ones_under_last _ _ l),
    ones_under_top _ _ 0 0 rfl l, ones_under_top _ _ 1 1 rfl l, ones_under_top _ _ 2 2 rfl l,
    ones_under_top _ _ 3 3 rfl l]
  simp only [shapeCast_self]
  rfl

end Cert.KernelIdeal.Hand

end
-- ==== Proof.KernelValue.lean ====
/-
  The unit-major program's result as one function of its arguments.

  Before its kernel the program re-lays its arguments: the input transposed to 4×1048576, the first bias row
  appended under the first-layer weights (5×128), the second layer's first two columns (128×2) and its bias's
  first two entries as a 2×1 column. The kernel runs on 16 blocks of 65536 samples; block t of the 2×1048576 output
  array is written back at point t and holds, at (a, l), output a on sample 65536·t + l. The blocks tile the output
  array, so after the run it is `Mlp.logitsT` of the arguments, and the program's result, its transpose, is
  `Mlp.logits`.
-/
import proofs.«111878_g2000403565215025_pallasbulk_1037_11_alg».proof.Proof.Gen.KernelIdeal.Frame
import proofs.«111878_g2000403565215025_pallasbulk_1037_11_alg».proof.Proof.KernelBody
import Idealize.ShloMosaic.Lib.Pipeline.Value
import Idealize.ShloMosaic.Lib.StableHlo.Run
import Idealize.ShloMosaic.Lib.Tactic

noncomputable section

open scoped BigOperators

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen Cert.Mlp

variable (m : (ℓ : Loc nD τ sig) → Buf (Elt Ideal) ℓ) (ρ : Dev nD → PrngReg)

theorem hz : (![0, 0] : Fin 2 → Nat) = fun _ => 0 := funext fun a => by fin_cases a <;> rfl

/-! ## The arrays the kernel finds -/

/-- The kernel's first operand is the input transposed. -/
theorem V_v0 (c : Dev nD) : (V m c main_v0 : S4x1048576.Idx → EReal)
    = transpose S4x1048576 [1, 0] (m ((c : Thread nD τ).loc main_arg0)) transposes_S1048576x4_S4x1048576_1_0 := by
  show StableHlo.after hostOps0 (fun b => m (c, b)) (Proc.devRef .tc main_v0) = _
  after_results

/-- Its second operand is the first-layer weights with the bias row appended. -/
theorem V_v1 (c : Dev nD) : (V m c main_v1 : S5x128.Idx → EReal)
    = concatenate S5x128 0 [⟨S4x128, m ((c : Thread nD τ).loc main_arg1)⟩, ⟨S1x128, m ((c : Thread nD τ).loc main_arg2)⟩]
        concatenates_S4x128_S1x128_S5x128_d0 := by
  show StableHlo.after hostOps0 (fun b => m (c, b)) (Proc.devRef .tc main_v1) = _
  after_results

/-- Its third operand is the first two columns of the second-layer weights. -/
theorem V_v2 (c : Dev nD) : (V m c main_v2 : S128x2.Idx → EReal)
    = extractStridedSlice S128x2 ![0, 0] (m ((c : Thread nD τ).loc main_arg3)) slices_S128x128_S128x2_0_0 := by
  show StableHlo.after hostOps0 (fun b => m (c, b)) (Proc.devRef .tc main_v2) = _
  after_results

/-- Its fourth operand is the first two entries of the second bias row, as a column. -/
theorem V_v4 (c : Dev nD) : (V m c main_v4 : S2x1.Idx → EReal)
    = transpose S2x1 [1, 0] (extractStridedSlice S1x2 ![0, 0] (m ((c : Thread nD τ).loc main_arg4)) slices_S1x128_S1x2_0_0)
        transposes_S1x2_S2x1_1_0 := by
  show StableHlo.after hostOps0 (fun b => m (c, b)) (Proc.devRef .tc main_v4) = _
  after_results

/-! ## The windows' blocks -/

/-- What the body leaves in the output's staging buffer, at an entry, over any four staged blocks. -/
theorem out_apply (x0 : Vec Ideal S4x65536 .f32) (x1 : Vec Ideal S5x128 .f32) (x2 : Vec Ideal S128x2 .f32)
    (x3 : Vec Ideal S2x1 .f32) (a : Fin 2) (l : Fin 65536) :
    out0_4 (F := Ideal) x0 x1 x2 x3 (ix2 a l) = logitT x0 x1 x2 x3 a l := by
  unfold out0_4
  rw [View.canon_unit_zero hz]
  simp only [View.ld_unit_zero (S := S4x65536) hz, View.ld_unit_zero (S := S5x128) hz,
    View.ld_unit_zero (S := S128x2) hz, View.ld_unit_zero (S := S2x1) hz]
  exact pay_apply x0 x1 x2 x3 a l

/-- The printed index maps over the grid: the input and the output move one block of columns per point, the three
    small operands stay at their one block. -/
theorem idx_facts : ∀ t : Fin cfg0.N, win0_0.index t (0 : Fin 2) = 0 ∧ win0_0.index t (1 : Fin 2) = t.val
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = t.val :=
  (by decide +kernel : ∀ t : Fin grid0.N, _)

/-- Column l of the input block at point t is column 65536·t + l of the transposed input. -/
theorem iblk0_apply (c : Dev nD) (t : Fin cfg0.N) (k : Fin 4) (l : Fin 65536) (g : Fin 1048576)
    (hg : g.val = t.val * 65536 + l.val) :
    (iblk m c 0 t : Vec Ideal S4x65536 .f32) (ix2 k l) = (V m c main_v0 : S4x1048576.Idx → EReal) (ix2 k g) := by
  have e0 : win0_0.index t (0 : Fin 2) = 0 := by have h := idx_facts t; exact h.1
  have e1 : win0_0.index t (1 : Fin 2) = t.val := by have h := idx_facts t; exact h.2.1
  unfold iblk
  rw [View.read_apply]
  show V m c main_v0 _ = V m c main_v0 _
  refine congrArg _ (funext fun a => Fin.ext ?_)
  match a with
  | ⟨0, _⟩ => show win0_0.index t (0 : Fin 2) * 4 + 1 * k.val = k.val; rw [e0]; omega
  | ⟨1, _⟩ => show win0_0.index t (1 : Fin 2) * 65536 + 1 * l.val = g.val; rw [e1, hg]; omega

/-- The augmented first-layer matrix is staged whole at every point. -/
theorem iblk1_apply (c : Dev nD) (t : Fin cfg0.N) (k : Fin 5) (h : Fin 128) :
    (iblk m c 1 t : Vec Ideal S5x128 .f32) (ix2 k h) = (V m c main_v1 : S5x128.Idx → EReal) (ix2 k h) := by
  have e0 : win0_1.index t (0 : Fin 2) = 0 := by have h := idx_facts t; exact h.2.2.1
  have e1 : win0_1.index t (1 : Fin 2) = 0 := by have h := idx_facts t; exact h.2.2.2.1
  unfold iblk
  rw [View.read_apply]
  show V m c main_v1 _ = V m c main_v1 _
  refine congrArg _ (funext fun ax => Fin.ext ?_)
  match ax with
  | ⟨0, _⟩ => show win0_1.index t (0 : Fin 2) * 5 + 1 * k.val = k.val; rw [e0]; omega
  | ⟨1, _⟩ => show win0_1.index t (1 : Fin 2) * 128 + 1 * h.val = h.val; rw [e1]; omega

/-- So is the narrow second-layer matrix, -/
theorem iblk2_apply (c : Dev nD) (t : Fin cfg0.N) (h : Fin 128) (a : Fin 2) :
    (iblk m c 2 t : Vec Ideal S128x2 .f32) (ix2 h a) = (V m c main_v2 : S128x2.Idx → EReal) (ix2 h a) := by
  have e0 : win0_2.index t (0 : Fin 2) = 0 := by have h := idx_facts t; exact h.2.2.2.2.1
  have e1 : win0_2.index t (1 : Fin 2) = 0 := by have h := idx_facts t; exact h.2.2.2.2.2.1
  unfold iblk
  rw [View.read_apply]
  show V m c main_v2 _ = V m c main_v2 _
  refine congrArg _ (funext fun ax => Fin.ext ?_)
  match ax with
  | ⟨0, _⟩ => show win0_2.index t (0 : Fin 2) * 128 + 1 * h.val = h.val; rw [e0]; omega
  | ⟨1, _⟩ => show win0_2.index t (1 : Fin 2) * 2 + 1 * a.val = a.val; rw [e1]; omega

/-- and its bias column. -/
theorem iblk3_apply (c : Dev nD) (t : Fin cfg0.N) (a : Fin 2) (z : Fin 1) :
    (iblk m c 3 t : Vec Ideal S2x1 .f32) (ix2 a z) = (V m c main_v4 : S2x1.Idx → EReal) (ix2 a z) := by
  have e0 : win0_3.index t (0 : Fin 2) = 0 := by have h := idx_facts t; exact h.2.2.2.2.2.2.1
  have e1 : win0_3.index t (1 : Fin 2) = 0 := by have h := idx_facts t; exact h.2.2.2.2.2.2.2.1
  unfold iblk
  rw [View.read_apply]
  show V m c main_v4 _ = V m c main_v4 _
  refine congrArg _ (funext fun ax => Fin.ext ?_)
  match ax with
  | ⟨0, _⟩ => show win0_3.index t (0 : Fin 2) * 2 + 1 * a.val = a.val; rw [e0]; omega
  | ⟨1, _⟩ => show win0_3.index t (1 : Fin 2) * 1 + 1 * z.val = z.val; rw [e1]; omega

/-! ## The operands the kernel finds, read at an entry of the arguments -/

/-- The transposed input at (k, g) is the input at (g, k). -/
theorem v0_apply (c : Dev nD) (k : Fin 4) (g : Fin 1048576) :
    (V m c main_v0 : S4x1048576.Idx → EReal) (ix2 k g) = ((m ((c : Thread nD τ).loc main_arg0)) : S1048576x4.Idx → EReal) (ix2 g k) := by
  rw [V_v0]
  exact transpose_ix2_apply _ _ k g

/-- The augmented first-layer matrix at one of its first four rows is the weights' row. -/
theorem v1_apply_top (c : Dev nD) (k : Fin 4) (k' : Fin 5) (hk : k'.val = k.val) (h : Fin 128) :
    (V m c main_v1 : S5x128.Idx → EReal) (ix2 k' h) = ((m ((c : Thread nD τ).loc main_arg1)) : S4x128.Idx → EReal) (ix2 k h) := by
  rw [V_v1]
  exact concatenate_pair_apply_left 0 ((m ((c : Thread nD τ).loc main_arg1)) : S4x128.Idx → EReal) ((m ((c : Thread nD τ).loc main_arg2)) : S1x128.Idx → EReal) _ (ix2 k' h)
    rfl (ix2 k h) fun b => match b with | ⟨0, _⟩ => hk.symm | ⟨1, _⟩ => rfl

/-- Its fifth row is the bias row. -/
theorem v1_apply_last (c : Dev nD) (h : Fin 128) :
    (V m c main_v1 : S5x128.Idx → EReal) (ix2 (4 : Fin 5) h) = ((m ((c : Thread nD τ).loc main_arg2)) : S1x128.Idx → EReal) (ix2 (0 : Fin 1) h) := by
  rw [V_v1]
  refine concatenate_pair_apply_right 0 ((m ((c : Thread nD τ).loc main_arg1)) : S4x128.Idx → EReal) ((m ((c : Thread nD τ).loc main_arg2)) : S1x128.Idx → EReal) _ (ix2 (4 : Fin 5) h)
    rfl rfl (ix2 (0 : Fin 1) h) (fun b hb => ?_) rfl
  match b with
  | ⟨0, _⟩ => exact absurd rfl hb
  | ⟨1, _⟩ => rfl

/-- The narrow second-layer matrix at (h, a) is the wide one at (h, a). -/
theorem v2_apply (c : Dev nD) (h : Fin 128) (a : Fin 2) :
    (V m c main_v2 : S128x2.Idx → EReal) (ix2 h a)
      = ((m ((c : Thread nD τ).loc main_arg3)) : S128x128.Idx → EReal) (ix2 h (Fin.castLE (by decide : 2 ≤ 128) a)) := by
  rw [V_v2]
  exact slice2_axis1_apply 0 _ _ h a (Fin.castLE (by decide : 2 ≤ 128) a) (Nat.zero_add _).symm

/-- The bias column at (a, 0) is the wide bias row at (0, a). -/
theorem v4_apply (c : Dev nD) (a : Fin 2) :
    (V m c main_v4 : S2x1.Idx → EReal) (ix2 a (0 : Fin 1))
      = ((m ((c : Thread nD τ).loc main_arg4)) : S1x128.Idx → EReal) (ix2 (0 : Fin 1) (Fin.castLE (by decide : 2 ≤ 128) a)) := by
  rw [V_v4]
  refine (transpose_ix2_apply _ _ a (0 : Fin 1)).trans ?_
  exact slice2_axis1_apply 0 _ _ (0 : Fin 1) a (Fin.castLE (by decide : 2 ≤ 128) a) (Nat.zero_add _).symm

/-! ## From blocks to the output array -/

/-- WHAT POINT t WRITES BACK is block t of the column-major outputs of the arguments. -/
theorem flushed_eq (c : Dev nD) (t : Fin cfg0.N) :
    (dats m 0 c).flushed 4 t = ((cfg0.win 4).blk t).view.read (Elt Ideal)
      (logitsT (m ((c : Thread nD τ).loc main_arg0)) (m ((c : Thread nD τ).loc main_arg1)) (m ((c : Thread nD τ).loc main_arg2)) (m ((c : Thread nD τ).loc main_arg3)) (m ((c : Thread nD τ).loc main_arg4))) := by
  show (cfg0.win 4).cut (grid0.coords t) ((dats m 0 c).after 4 t) = _
  rw [after0_4]
  funext j
  obtain ⟨a, l, rfl⟩ : ∃ (a : Fin 2) (l : Fin 65536), j = ix2 a l := ⟨j 0, j 1, eq_ix2 j⟩
  refine (out_apply (iblk m c 0 t) (iblk m c 1 t) (iblk m c 2 t) (iblk m c 3 t) a l).trans ?_
  have hN : t.val < 16 := Nat.lt_of_lt_of_eq t.isLt N_0
  have e0 : win0_4.index t (0 : Fin 2) = 0 := by have h := idx_facts t; exact h.2.2.2.2.2.2.2.2.1
  have e1 : win0_4.index t (1 : Fin 2) = t.val := by have h := idx_facts t; exact h.2.2.2.2.2.2.2.2.2
  have hemb : ((cfg0.win 4).blk t).view.emb (ix2 a l) = ix2 a (⟨t.val * 65536 + l.val, by omega⟩ : Fin 1048576) := by
    funext b; apply Fin.ext
    match b with
    | ⟨0, _⟩ => show win0_4.index t (0 : Fin 2) * 2 + 1 * a.val = a.val; rw [e0]; omega
    | ⟨1, _⟩ => show win0_4.index t (1 : Fin 2) * 65536 + 1 * l.val = t.val * 65536 + l.val; rw [e1]; omega
  rw [View.read_apply]
  show _ = logitsT (m ((c : Thread nD τ).loc main_arg0)) (m ((c : Thread nD τ).loc main_arg1)) (m ((c : Thread nD τ).loc main_arg2)) (m ((c : Thread nD τ).loc main_arg3)) (m ((c : Thread nD τ).loc main_arg4)) (((cfg0.win 4).blk t).view.emb (ix2 a l))
  rw [hemb]
  exact logitT_eq_logit _ _ _ _ _ _ _ _ _ a (Fin.castLE (by decide : 2 ≤ 128) a) ⟨t.val * 65536 + l.val, by omega⟩ l
    (fun k => (iblk0_apply m c t k l _ rfl).trans (v0_apply m c k _))
    (fun k k' h hk => (iblk1_apply m c t k' h).trans (v1_apply_top m c k k' hk h))
    (fun h => (iblk1_apply m c t 4 h).trans (v1_apply_last m c h))
    (fun h => (iblk2_apply m c t h a).trans (v2_apply m c h a))
    ((iblk3_apply m c t a 0).trans (v4_apply m c a))

/-- An index of the output array is in point t's block iff each coordinate is in the block's range on its axis. -/
theorem mem_blk (t : Fin cfg0.N) (i : S2x1048576.Idx) :
    i ∈ ((cfg0.win 4).blk t).view.set ↔ ∀ a : Fin 2, win0_4.index t a * S2x65536.size a ≤ (i a).val
      ∧ (i a).val < win0_4.index t a * S2x65536.size a + S2x65536.size a := by
  show i ∈ ((View.whole main_v5).slice (win0_4.rect t)).set ↔ _
  rw [View.set_slice_whole, Rect.mem_set_unit]
  exact Iff.rfl

/-- THE OUTPUT ARRAY after the run: column g is in the block of point g / 65536, so the blocks cover it. -/
theorem final4 (c : Dev nD) : (dats m 0 c).arrAt 4 cfg0.N = logitsT (m ((c : Thread nD τ).loc main_arg0)) (m ((c : Thread nD τ).loc main_arg1)) (m ((c : Thread nD τ).loc main_arg2)) (m ((c : Thread nD τ).loc main_arg3)) (m ((c : Thread nD τ).loc main_arg4)) :=
  (dats m 0 c).arrAt_eq_of_cover 4 _ (fun t _ => flushed_eq m c t) fun i => by
    have hi0 : (i 0).val < 2 := (i 0).isLt
    have hi1 : (i 1).val < 1048576 := (i 1).isLt
    have hN : cfg0.N = 16 := N_0
    have ht : (i 1).val / 65536 < cfg0.N := by rw [hN]; omega
    have e0 : win0_4.index ⟨(i 1).val / 65536, ht⟩ (0 : Fin 2) = 0 := by
      have h := idx_facts ⟨(i 1).val / 65536, ht⟩; exact h.2.2.2.2.2.2.2.2.1
    have e1 : win0_4.index ⟨(i 1).val / 65536, ht⟩ (1 : Fin 2) = (i 1).val / 65536 := by
      have h := idx_facts ⟨(i 1).val / 65536, ht⟩; exact h.2.2.2.2.2.2.2.2.2
    refine ⟨⟨(i 1).val / 65536, ht⟩, flush0_4 _, ?_⟩
    rw [mem_blk]
    intro a
    match a with
    | ⟨0, _⟩ =>
      show win0_4.index ⟨(i 1).val / 65536, ht⟩ (0 : Fin 2) * 2 ≤ (i 0).val
        ∧ (i 0).val < win0_4.index ⟨(i 1).val / 65536, ht⟩ (0 : Fin 2) * 2 + 2
      rw [e0]; omega
    | ⟨1, _⟩ =>
      show win0_4.index ⟨(i 1).val / 65536, ht⟩ (1 : Fin 2) * 65536 ≤ (i 1).val
        ∧ (i 1).val < win0_4.index ⟨(i 1).val / 65536, ht⟩ (1 : Fin 2) * 65536 + 65536
      rw [e1]; omega

/-- The program's result: the transpose after the kernel reads the output array's columns as rows. -/
theorem tail_eq (c : Dev nD) :
    Pipeline.afterTail₀ cfgs (dats m) 0 (V0 m) [hostOps1] c main_v6 = logits (m ((c : Thread nD τ).loc main_arg0)) (m ((c : Thread nD τ).loc main_arg1)) (m ((c : Thread nD τ).loc main_arg2)) (m ((c : Thread nD τ).loc main_arg3)) (m ((c : Thread nD τ).loc main_arg4)) := by
  unfold Pipeline.afterTail₀
  show StableHlo.after hostOps1 _ (Proc.devRef .tc main_v6) = _
  after_results
  have hA := (Pipeline.withArrays_arr spec0 launch0.win.arr_inj c (V0 m c) (fun w => (dats m 0 c).arrAt w cfg0.N) 4).trans (final4 m c)
  refine (congrArg (fun X => transpose S1048576x2 [1, 0] X transposes_S2x1048576_S1048576x2_1_0) hA).trans ?_
  exact transpose_logitsT _ _ _ _ _ _

/-- THE RUN, READ: every execution ends with the result at `Mlp.logits` of the arguments and the arguments unchanged. -/
theorem run : θ_run defs (onTc (τ := τ) (main (F := Ideal))) ⟨m, fun _ => 0, ρ⟩ fun r => ∀ c : Dev nD,
      r.2.mem ((c.tc : Thread nD τ).loc main_v6) = logits (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
      ⟨((h c).2 main_v6 (Pipeline.mem_restRefs_of main_v6 (by decide) (by decide))).trans (tail_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c),
        ((h c).2 main_arg2 (Pipeline.mem_restRefs_of main_arg2 (by decide) (by decide))).trans (W_main_arg2 m (dats m) c),
        ((h c).2 main_arg3 (Pipeline.mem_restRefs_of main_arg3 (by decide) (by decide))).trans (W_main_arg3 m (dats m) c),
        ((h c).2 main_arg4 (Pipeline.mem_restRefs_of main_arg4 (by decide) (by decide))).trans (W_main_arg4 m (dats m) c)⟩)
    (run_main m ρ)

end Cert.KernelIdeal.Hand

end
-- ==== Proof.LibPlainDot.lean ====
/-
  The plain matrix product read at one entry, at the ideal values.

  Take dimension numbers that contract the left operand's column axis against the right operand's row axis and
  have no batch axis: an m×k matrix A times a k×n matrix B. Then a kernel's `tpu.matmul` into the zero
  accumulator and the host's `dot_general` both hold, at entry (a, b), the sum over the contracted coordinate c
  of A(a, c) · B(c, b) — in the extended reals, with no finiteness asked, since both are that sum by definition
  once the contraction index is renamed by its one coordinate.

  The dimension record may be any record equal to the library's `DotDims.plain m k n`; for a record written out
  with those lists the equality is `rfl`.
-/
import Idealize.ShloMosaic.PureOps.Ideal.Laws
import Idealize.ShloMosaic.Lib.ValueIdx

noncomputable section

open scoped BigOperators

namespace Cert.PlainDot

open Idealize.ShloMosaic Idealize.ShloMosaic.ValueIdx

variable {m k n : Nat} {φ₁ φ₂ : FTy}

/-- The left operand's row coordinate is the output's row. -/
theorem lhsIdx_plain_0 (j : (⟨2, ![m, n]⟩ : Shape).Idx) (q : (DotDims.plain m k n).contr.Idx) :
    ((DotDims.plain m k n).lhsIdx j q 0).val = (j 0).val := by
  unfold DotDims.lhsIdx
  rw [dif_neg (show ¬(0 : Fin 2) ∈ (DotDims.plain m k n).lhsBatch from List.not_mem_nil),
    dif_pos (show (0 : Fin 2) ∈ (DotDims.plain m k n).lhsNonContracting from List.mem_singleton.mpr rfl)]
  rfl

/-- The left operand's column coordinate is the contraction coordinate. -/
theorem lhsIdx_plain_1 (j : (⟨2, ![m, n]⟩ : Shape).Idx) (q : (DotDims.plain m k n).contr.Idx) :
    ((DotDims.plain m k n).lhsIdx j q 1).val = (q ⟨0, Nat.one_pos⟩).val :=
  (DotDims.plain m k n).lhsIdx_val_of_single rfl j q

/-- The right operand's row coordinate is the contraction coordinate. -/
theorem rhsIdx_plain_0 (j : (⟨2, ![m, n]⟩ : Shape).Idx) (q : (DotDims.plain m k n).contr.Idx) :
    ((DotDims.plain m k n).rhsIdx j q 0).val = (q ⟨0, Nat.one_pos⟩).val :=
  (DotDims.plain m k n).rhsIdx_val_of_single rfl j q

/-- The right operand's column coordinate is the output's column. -/
theorem rhsIdx_plain_1 (j : (⟨2, ![m, n]⟩ : Shape).Idx) (q : (DotDims.plain m k n).contr.Idx) :
    ((DotDims.plain m k n).rhsIdx j q 1).val = (j 1).val := by
  unfold DotDims.rhsIdx
  rw [dif_neg (show ¬(1 : Fin 2) ∈ (DotDims.plain m k n).rhsBatch from List.not_mem_nil),
    dif_pos (show (1 : Fin 2) ∈ (DotDims.plain m k n).rhsNonContracting from List.mem_singleton.mpr rfl)]
  rfl

/-- At output entry (a, b) and contraction coordinate c the left operand is read at (a, c). -/
theorem lhsIdx_plain (a : Fin m) (b : Fin n) (c : Fin k) :
    (DotDims.plain m k n).lhsIdx (ix2 a b) ((contrEquiv1 (DotDims.plain m k n) k rfl rfl).symm c) = ix2 a c := by
  have hc := contrEquiv1_symm_val (DotDims.plain m k n) k rfl rfl c
  funext ax
  apply Fin.ext
  match ax with
  | ⟨0, _⟩ => exact lhsIdx_plain_0 _ _
  | ⟨1, _⟩ => exact (lhsIdx_plain_1 _ _).trans hc

/-- At output entry (a, b) and contraction coordinate c the right operand is read at (c, b). -/
theorem rhsIdx_plain (a : Fin m) (b : Fin n) (c : Fin k) :
    (DotDims.plain m k n).rhsIdx (ix2 a b) ((contrEquiv1 (DotDims.plain m k n) k rfl rfl).symm c) = ix2 c b := by
  have hc := contrEquiv1_symm_val (DotDims.plain m k n) k rfl rfl c
  funext ax
  apply Fin.ext
  match ax with
  | ⟨0, _⟩ => exact (rhsIdx_plain_0 _ _).trans hc
  | ⟨1, _⟩ => exact rhsIdx_plain_1 _ _

/-- The sum over the contraction index of a plain product is the sum over its one coordinate. -/
theorem sum_contr_plain (A : (⟨2, ![m, k]⟩ : Shape).Idx → EReal) (B : (⟨2, ![k, n]⟩ : Shape).Idx → EReal)
    (a : Fin m) (b : Fin n) :
    (∑ q : (DotDims.plain m k n).contr.Idx,
        A ((DotDims.plain m k n).lhsIdx (ix2 a b) q) * B ((DotDims.plain m k n).rhsIdx (ix2 a b) q))
      = ∑ c : Fin k, A (ix2 a c) * B (ix2 c b) := by
  rw [← Equiv.sum_comp (contrEquiv1 (DotDims.plain m k n) k rfl rfl).symm]
  refine Finset.sum_congr rfl fun c _ => ?_
  rw [lhsIdx_plain, rhsIdx_plain]

/-- A `tpu.matmul` into the zero accumulator, with the plain dimension numbers, at entry (a, b):
    the sum over c of A(a, c) · B(c, b). -/
theorem matmul_zero_apply (D : DotDims ⟨2, ![m, k]⟩ ⟨2, ![k, n]⟩ ⟨2, ![m, n]⟩) (hD : D = DotDims.plain m k n)
    (prec : Option ContractPrecision) (A : FVec Ideal ⟨2, ![m, k]⟩ φ₁) (B : FVec Ideal ⟨2, ![k, n]⟩ φ₂)
    (a : Fin m) (b : Fin n) :
    FloatOps.matmul D prec A B (constant (F := Ideal) ⟨2, ![m, n]⟩ .f32 0x00000000#32) (ix2 a b)
      = ∑ c : Fin k, A (ix2 a c) * B (ix2 c b) := by
  subst hD
  rw [Ideal.matmul_constant_zero_apply]
  exact sum_contr_plain A B a b

/-- The host's `dot_general` with the plain dimension numbers, at entry (a, b): the same sum. -/
theorem dotGeneral_apply (D : DotDims ⟨2, ![m, k]⟩ ⟨2, ![k, n]⟩ ⟨2, ![m, n]⟩) (hD : D = DotDims.plain m k n)
    (prec : Option ContractPrecision) (sched : HostSchedule) (A : FVec Ideal ⟨2, ![m, k]⟩ φ₁)
    (B : FVec Ideal ⟨2, ![k, n]⟩ φ₂) (a : Fin m) (b : Fin n) :
    FloatOps.dotGeneral D prec sched A B (ix2 a b) = ∑ c : Fin k, A (ix2 a c) * B (ix2 c b) := by
  subst hD
  rw [Ideal.dotGeneral_apply]
  exact sum_contr_plain A B a b

end Cert.PlainDot

end
-- ==== Proof.RefBody.lean ====
/-
  What the sample-major kernel body computes on one block of 512 samples (rows), read at one entry.

  The body spreads the first-layer bias row over the rows, adds, one after the other, input column k spread over the
  lanes times weight row k spread over the rows (k = 0 … 3), clamps at zero, multiplies the 128×128 second-layer
  matrix into that and adds the second bias row spread over the rows. At entry (p, q) that is the sum over the hidden
  units j of max(b1ⱼ + x(p,0)·w1₀ⱼ + … + x(p,3)·w1₃ⱼ, 0) · w2(j, q), plus b2(q), of the loaded rows and blocks.
-/
import proofs.«111878_g2000403565215025_pallasbulk_1037_11_alg».proof.Proof.Gen.ReferenceIdeal.Skeleton
import proofs.«111878_g2000403565215025_pallasbulk_1037_11_alg».proof.Proof.LibPlainDot
import proofs.«111878_g2000403565215025_pallasbulk_1037_11_alg».proof.Proof.LibMatrixReads
import proofs.«111878_g2000403565215025_pallasbulk_1037_11_alg».proof.Proof.Mlp
import Idealize.ShloMosaic.Lib.Pipeline.Value
import Idealize.ShloMosaic.Lib.ValueLayout

noncomputable section

open scoped BigOperators

namespace Cert.ReferenceIdeal.Hand

open Idealize.ShloMosaic Idealize.ShloMosaic.ValueIdx Cert.ReferenceIdeal Cert.ReferenceIdeal.Gen Cert.Mlp

/-- THE BODY AT AN ENTRY, over the eight loaded values: the input block `v0`, the first bias row `v1`, the four
    first-layer weight rows `v5`, `v11`, `v17`, `v23`, the second-layer matrix `v30` and its bias row `v32`. -/
theorem pay_apply (v0 : Vec Ideal S512x4 .f32) (v1 v5 v11 v17 v23 : Vec Ideal S1x128 .f32)
    (v30 : Vec Ideal S128x128 .f32) (v32 : Vec Ideal S1x128 .f32) (p : Fin 512) (q : Fin 128) :
    k0_pay1 (F := Ideal) v0 v1 v5 v11 v17 v23 v30 v32 (ix2 p q)
      = (∑ j : Fin 128,
          max (pre (v0 (ix2 p (0 : Fin 4))) (v0 (ix2 p (1 : Fin 4))) (v0 (ix2 p (2 : Fin 4))) (v0 (ix2 p (3 : Fin 4)))
              (v5 (ix2 (0 : Fin 1) j)) (v11 (ix2 (0 : Fin 1) j)) (v17 (ix2 (0 : Fin 1) j)) (v23 (ix2 (0 : Fin 1) j))
              (v1 (ix2 (0 : Fin 1) j)))
            (Ideal.ofBits .f32 0x00000000#32) * v30 (ix2 j q))
        + v32 (ix2 (0 : Fin 1) q) := by
  unfold k0_pay1
  simp only [matmul, shapeCast_self]
  rw [addf_apply, PlainDot.matmul_zero_apply dot_S512x128_S128x128_S512x128_1_0_0_1_n_n rfl none _ v30 p q,
    broadcastTo_1b_ab_apply]
  refine congrArg (· + _) (Finset.sum_congr rfl fun j _ => ?_)
  rw [maximumf_apply, broadcast_apply]
  simp only [addf_apply, mulf_apply, broadcastTo_1b_ab_apply]
  rw [MatrixReads.column_cut_spread_apply v0 0 (0 : Fin 4) rfl, MatrixReads.column_cut_spread_apply v0 1 (1 : Fin 4) rfl,
    MatrixReads.column_cut_spread_apply v0 2 (2 : Fin 4) rfl, MatrixReads.column_cut_spread_apply v0 3 (3 : Fin 4) rfl]
  rfl

end Cert.ReferenceIdeal.Hand

end
-- ==== Proof.RefValue.lean ====
/-
  The sample-major program's result as one function of its arguments.

  Its one kernel runs on 2048 blocks of 512 samples; block t of the 1048576×128 output array is written back at
  point t and holds, at (p, q), all the perceptron's output q on sample 512·t + p: the four small operands are staged
  whole at every point and the input block is rows 512·t … 512·t + 511 of the input. The blocks tile the output
  array, so after the run it is `Mlp.logitsWide` of the arguments, and the program's result, its first two columns,
  is `Mlp.logits`.
-/
import proofs.«111878_g2000403565215025_pallasbulk_1037_11_alg».proof.Proof.Gen.ReferenceIdeal.Frame
import proofs.«111878_g2000403565215025_pallasbulk_1037_11_alg».proof.Proof.RefBody
import Idealize.ShloMosaic.Lib.Pipeline.Value
import Idealize.ShloMosaic.Lib.StableHlo.Run
import Idealize.ShloMosaic.Lib.Tactic

noncomputable section

open scoped BigOperators

namespace Cert.ReferenceIdeal.Hand

open Idealize.ShloMosaic Idealize.ShloMosaic.TcCoe Idealize.ShloMosaic.ValueIdx Idealize.SL.Sem
open Idealize.ShloMosaic.Pipeline (Dat)
open Cert.ReferenceIdeal Cert.ReferenceIdeal.Gen Cert.Mlp

variable (m : (ℓ : Loc nD τ sig) → Buf (Elt Ideal) ℓ) (ρ : Dev nD → PrngReg)

theorem hz : (![0, 0] : Fin 2 → Nat) = fun _ => 0 := funext fun a => by fin_cases a <;> rfl

/-- What the body leaves in the output's staging buffer, at an entry, over any five staged blocks: the perceptron on
    row p of the input block. The four weight rows are rows 0 … 3 of the staged 4×128 matrix. -/
theorem out_apply (x0 : Vec Ideal S512x4 .f32) (x1 : Vec Ideal S4x128 .f32) (x2 : Vec Ideal S1x128 .f32)
    (x3 : Vec Ideal S128x128 .f32) (x4 : Vec Ideal S1x128 .f32) (p : Fin 512) (q : Fin 128) :
    out0_5 (F := Ideal) x0 x1 x2 x3 x4 (ix2 p q) = logit x0 x1 x2 x3 x4 p q := by
  unfold out0_5
  rw [View.canon_unit_zero hz]
  simp only [View.ld_unit_zero (S := S512x4) hz, View.ld_unit_zero (S := S1x128) hz, View.ld_unit_zero (S := S128x128) hz]
  rw [pay_apply]
  unfold logit hiddenUnit
  refine congrArg (· + _) (Finset.sum_congr rfl fun j _ => ?_)
  have e0 : View.ld x1 r0_2 (ix2 (0 : Fin 1) j) = x1 (ix2 (0 : Fin 4) j) := MatrixReads.row_load_apply x1 (0 : Fin 4) _ j
  have e1 : View.ld x1 r0_3 (ix2 (0 : Fin 1) j) = x1 (ix2 (1 : Fin 4) j) := MatrixReads.row_load_apply x1 (1 : Fin 4) _ j
  have e2 : View.ld x1 r0_4 (ix2 (0 : Fin 1) j) = x1 (ix2 (2 : Fin 4) j) := MatrixReads.row_load_apply x1 (2 : Fin 4) _ j
  have e3 : View.ld x1 r0_5 (ix2 (0 : Fin 1) j) = x1 (ix2 (3 : Fin 4) j) := MatrixReads.row_load_apply x1 (3 : Fin 4) _ j
  rw [e0, e1, e2, e3]

/-- The printed index maps over the grid: the input and the output move one block of rows per point, the four small
    operands stay at their one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row p of the input block at point t is row 512·t + p of the input. -/
theorem iblk0_apply (c : Dev nD) (t : Fin cfg0.N) (p : Fin 512) (k : Fin 4) (r : Fin 1048576)
    (hr : r.val = t.val * 512 + p.val) :
    (iblk m c 0 t : Vec Ideal S512x4 .f32) (ix2 p k) = (m ((c : Thread nD τ).loc main_arg0) : S1048576x4.Idx → EReal) (ix2 r k) := by
  obtain ⟨e0, e1, -⟩ := idx_facts t
  unfold iblk
  rw [View.read_apply]
  show V m c main_arg0 _ = m (c.tc.loc main_arg0) _
  unfold V
  refine congrArg _ (funext fun a => Fin.ext ?_)
  match a with
  | ⟨0, _⟩ => show win0_0.index t (0 : Fin 2) * 512 + 1 * p.val = r.val; rw [e0, hr]; omega
  | ⟨1, _⟩ => show win0_0.index t (1 : Fin 2) * 4 + 1 * k.val = k.val; rw [e1]; omega

/-- The first-layer weights are staged whole at every point. -/
theorem iblk1_apply (c : Dev nD) (t : Fin cfg0.N) (k : Fin 4) (j : Fin 128) :
    (iblk m c 1 t : Vec Ideal S4x128 .f32) (ix2 k j) = (m ((c : Thread nD τ).loc main_arg1) : S4x128.Idx → EReal) (ix2 k j) := by
  have e0 : win0_1.index t (0 : Fin 2) = 0 := by have h := idx_facts t; exact h.2.2.1
  have e1 : win0_1.index t (1 : Fin 2) = 0 := by have h := idx_facts t; exact h.2.2.2.1
  unfold iblk
  rw [View.read_apply]
  show V m c main_arg1 _ = m (c.tc.loc main_arg1) _
  unfold V
  refine congrArg _ (funext fun a => Fin.ext ?_)
  match a with
  | ⟨0, _⟩ => show win0_1.index t (0 : Fin 2) * 4 + 1 * k.val = k.val; rw [e0]; omega
  | ⟨1, _⟩ => show win0_1.index t (1 : Fin 2) * 128 + 1 * j.val = j.val; rw [e1]; omega

/-- So is the first bias row, -/
theorem iblk2_apply (c : Dev nD) (t : Fin cfg0.N) (z : Fin 1) (j : Fin 128) :
    (iblk m c 2 t : Vec Ideal S1x128 .f32) (ix2 z j) = (m ((c : Thread nD τ).loc main_arg2) : S1x128.Idx → EReal) (ix2 z j) := by
  have e0 : win0_2.index t (0 : Fin 2) = 0 := by have h := idx_facts t; exact h.2.2.2.2.1
  have e1 : win0_2.index t (1 : Fin 2) = 0 := by have h := idx_facts t; exact h.2.2.2.2.2.1
  unfold iblk
  rw [View.read_apply]
  show V m c main_arg2 _ = m (c.tc.loc main_arg2) _
  unfold V
  refine congrArg _ (funext fun a => Fin.ext ?_)
  match a with
  | ⟨0, _⟩ => show win0_2.index t (0 : Fin 2) * 1 + 1 * z.val = z.val; rw [e0]; omega
  | ⟨1, _⟩ => show win0_2.index t (1 : Fin 2) * 128 + 1 * j.val = j.val; rw [e1]; omega

/-- the second-layer matrix, -/
theorem iblk3_apply (c : Dev nD) (t : Fin cfg0.N) (j : Fin 128) (q : Fin 128) :
    (iblk m c 3 t : Vec Ideal S128x128 .f32) (ix2 j q) = (m ((c : Thread nD τ).loc main_arg3) : S128x128.Idx → EReal) (ix2 j q) := by
  have e0 : win0_3.index t (0 : Fin 2) = 0 := by have h := idx_facts t; exact h.2.2.2.2.2.2.1
  have e1 : win0_3.index t (1 : Fin 2) = 0 := by have h := idx_facts t; exact h.2.2.2.2.2.2.2.1
  unfold iblk
  rw [View.read_apply]
  show V m c main_arg3 _ = m (c.tc.loc main_arg3) _
  unfold V
  refine congrArg _ (funext fun a => Fin.ext ?_)
  match a with
  | ⟨0, _⟩ => show win0_3.index t (0 : Fin 2) * 128 + 1 * j.val = j.val; rw [e0]; omega
  | ⟨1, _⟩ => show win0_3.index t (1 : Fin 2) * 128 + 1 * q.val = q.val; rw [e1]; omega

/-- and the second bias row. -/
theorem iblk4_apply (c : Dev nD) (t : Fin cfg0.N) (z : Fin 1) (q : Fin 128) :
    (iblk m c 4 t : Vec Ideal S1x128 .f32) (ix2 z q) = (m ((c : Thread nD τ).loc main_arg4) : S1x128.Idx → EReal) (ix2 z q) := by
  have e0 : win0_4.index t (0 : Fin 2) = 0 := by have h := idx_facts t; exact h.2.2.2.2.2.2.2.2.1
  have e1 : win0_4.index t (1 : Fin 2) = 0 := by have h := idx_facts t; exact h.2.2.2.2.2.2.2.2.2.1
  unfold iblk
  rw [View.read_apply]
  show V m c main_arg4 _ = m (c.tc.loc main_arg4) _
  unfold V
  refine congrArg _ (funext fun a => Fin.ext ?_)
  match a with
  | ⟨0, _⟩ => show win0_4.index t (0 : Fin 2) * 1 + 1 * z.val = z.val; rw [e0]; omega
  | ⟨1, _⟩ => show win0_4.index t (1 : Fin 2) * 128 + 1 * q.val = q.val; rw [e1]; omega

/-- WHAT POINT t WRITES BACK is block t of the wide outputs of the arguments. -/
theorem flushed_eq (c : Dev nD) (t : Fin cfg0.N) :
    (dats m 0 c).flushed 5 t = ((cfg0.win 5).blk t).view.read (Elt Ideal)
      (logitsWide (m ((c : Thread nD τ).loc main_arg0)) (m ((c : Thread nD τ).loc main_arg1)) (m ((c : Thread nD τ).loc main_arg2)) (m ((c : Thread nD τ).loc main_arg3)) (m ((c : Thread nD τ).loc main_arg4))) := by
  show (cfg0.win 5).cut (grid0.coords t) ((dats m 0 c).after 5 t) = _
  rw [after0_5]
  funext j
  obtain ⟨p, q, rfl⟩ : ∃ (p : Fin 512) (q : Fin 128), j = ix2 p q := ⟨j 0, j 1, eq_ix2 j⟩
  refine (out_apply (iblk m c 0 t) (iblk m c 1 t) (iblk m c 2 t) (iblk m c 3 t) (iblk m c 4 t) p q).trans ?_
  have hN : t.val < 2048 := Nat.lt_of_lt_of_eq t.isLt N_0
  have e0 : win0_5.index t (0 : Fin 2) = t.val := by have h := idx_facts t; exact h.2.2.2.2.2.2.2.2.2.2.1
  have e1 : win0_5.index t (1 : Fin 2) = 0 := by have h := idx_facts t; exact h.2.2.2.2.2.2.2.2.2.2.2
  have hemb : ((cfg0.win 5).blk t).view.emb (ix2 p q) = ix2 (⟨t.val * 512 + p.val, by omega⟩ : Fin 1048576) q := by
    funext a; apply Fin.ext
    match a with
    | ⟨0, _⟩ => show win0_5.index t (0 : Fin 2) * 512 + 1 * p.val = t.val * 512 + p.val; rw [e0]; omega
    | ⟨1, _⟩ => show win0_5.index t (1 : Fin 2) * 128 + 1 * q.val = q.val; rw [e1]; omega
  rw [View.read_apply]
  show _ = logitsWide (m ((c : Thread nD τ).loc main_arg0)) (m ((c : Thread nD τ).loc main_arg1)) (m ((c : Thread nD τ).loc main_arg2)) (m ((c : Thread nD τ).loc main_arg3)) (m ((c : Thread nD τ).loc main_arg4)) (((cfg0.win 5).blk t).view.emb (ix2 p q))
  rw [hemb]
  exact logit_congr _ _ _ _ _ _ _ _ _ _ p ⟨t.val * 512 + p.val, by omega⟩ q
    (fun k => iblk0_apply m c t p k _ rfl) (fun k j => iblk1_apply m c t k j) (fun j => iblk2_apply m c t 0 j)
    (fun j => iblk3_apply m c t j q) (iblk4_apply m c t 0 q)

/-- An index of the output array is in point t's block iff each coordinate is in the block's range on its axis. -/
theorem mem_blk (t : Fin cfg0.N) (i : S1048576x128.Idx) :
    i ∈ ((cfg0.win 5).blk t).view.set ↔ ∀ a : Fin 2, win0_5.index t a * S512x128.size a ≤ (i a).val
      ∧ (i a).val < win0_5.index t a * S512x128.size a + S512x128.size a := by
  show i ∈ ((View.whole main_call0_v0).slice (win0_5.rect t)).set ↔ _
  rw [View.set_slice_whole, Rect.mem_set_unit]
  exact Iff.rfl

/-- THE OUTPUT ARRAY after the run: row r is in the block of point r / 512, so the blocks cover it. -/
theorem final5 (c : Dev nD) : (dats m 0 c).arrAt 5 cfg0.N = logitsWide (m ((c : Thread nD τ).loc main_arg0)) (m ((c : Thread nD τ).loc main_arg1)) (m ((c : Thread nD τ).loc main_arg2)) (m ((c : Thread nD τ).loc main_arg3)) (m ((c : Thread nD τ).loc main_arg4)) :=
  (dats m 0 c).arrAt_eq_of_cover 5 _ (fun t _ => flushed_eq m c t) fun i => by
    have hi0 : (i 0).val < 1048576 := (i 0).isLt
    have hi1 : (i 1).val < 128 := (i 1).isLt
    have hN : cfg0.N = 2048 := N_0
    have ht : (i 0).val / 512 < cfg0.N := by rw [hN]; omega
    have e0 : win0_5.index ⟨(i 0).val / 512, ht⟩ (0 : Fin 2) = (i 0).val / 512 := by
      have h := idx_facts ⟨(i 0).val / 512, ht⟩; exact h.2.2.2.2.2.2.2.2.2.2.1
    have e1 : win0_5.index ⟨(i 0).val / 512, ht⟩ (1 : Fin 2) = 0 := by
      have h := idx_facts ⟨(i 0).val / 512, ht⟩; exact h.2.2.2.2.2.2.2.2.2.2.2
    refine ⟨⟨(i 0).val / 512, ht⟩, flush0_5 _, ?_⟩
    rw [mem_blk]
    intro a
    match a with
    | ⟨0, _⟩ =>
      show win0_5.index ⟨(i 0).val / 512, ht⟩ (0 : Fin 2) * 512 ≤ (i 0).val
        ∧ (i 0).val < win0_5.index ⟨(i 0).val / 512, ht⟩ (0 : Fin 2) * 512 + 512
      rw [e0]; omega
    | ⟨1, _⟩ =>
      show win0_5.index ⟨(i 0).val / 512, ht⟩ (1 : Fin 2) * 128 ≤ (i 1).val
        ∧ (i 1).val < win0_5.index ⟨(i 0).val / 512, ht⟩ (1 : Fin 2) * 128 + 128
      rw [e1]; omega

/-- The program's result: the slice after the kernel reads the first two columns of the output array. -/
theorem tail_eq (c : Dev nD) :
    Pipeline.afterTail₀ cfgs (dats m) 0 (V0 m) [hostOps1] c main_v0 = logits (m ((c : Thread nD τ).loc main_arg0)) (m ((c : Thread nD τ).loc main_arg1)) (m ((c : Thread nD τ).loc main_arg2)) (m ((c : Thread nD τ).loc main_arg3)) (m ((c : Thread nD τ).loc main_arg4)) := by
  unfold Pipeline.afterTail₀
  show StableHlo.after hostOps1 _ (Proc.devRef .tc main_v0) = _
  after_results
  simp only [StableHlo.TRef.toBuf, StableHlo.TRef.ofBuf, cast_eq]
  have hA := (Pipeline.withArrays_arr spec0 launch0.win.arr_inj c (V0 m c) (fun w => (dats m 0 c).arrAt w cfg0.N) 5).trans (final5 m c)
  refine (congrArg (fun X => extractStridedSlice S1048576x2 ![0, 0] X slices_S1048576x128_S1048576x2_0_0) hA).trans ?_
  exact slice_logitsWide _ _ _ _ _ _

/-- THE RUN, READ: every execution ends with the result at `Mlp.logits` of the arguments and the arguments unchanged. -/
theorem run : θ_run defs (onTc (τ := τ) (main (F := Ideal))) ⟨m, fun _ => 0, ρ⟩ fun r => ∀ c : Dev nD,
      r.2.mem ((c.tc : Thread nD τ).loc main_v0) = logits (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
      ⟨((h c).2 main_v0 (Pipeline.mem_restRefs_of main_v0 (by decide) (by decide))).trans (tail_eq m c),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c))),
        ((h c).1 2).trans (((dats m 0 c).arrAt_in 2 rfl _).trans ((A_eq m c 2).trans (V_main_arg2 m c))),
        ((h c).1 3).trans (((dats m 0 c).arrAt_in 3 rfl _).trans ((A_eq m c 3).trans (V_main_arg3 m c))),
        ((h c).1 4).trans (((dats m 0 c).arrAt_in 4 rfl _).trans ((A_eq m c 4).trans (V_main_arg4 m c)))⟩)
    (run_main m ρ)

end Cert.ReferenceIdeal.Hand

end
-- ==== Proof.lean ====
/-
  The certificate: a four-input, 128-hidden-unit rectified perceptron computed two ways.

  The kernel program puts the batch on the lanes: it transposes the input, folds the first-layer bias into a 5×128
  matrix against an appended row of ones, runs 16 blocks of 65536 samples through two matrix products contracted on
  their leading axes, and transposes the 2×1048576 result back. The reference keeps samples as rows: 2048 blocks of
  512 samples, the first layer as the bias plus four column-times-row products, one 128×128 product, and the first two
  of 128 output columns kept. At the ideal values both end at `Mlp.logits` of the arguments: the two first layers are
  the same five-term sum up to the order of + and · and a factor 1, the second layers differ by the order of · alone.
  No law used needs finite numbers, so the precondition is never opened. The three frames are the generated ones; the
  ideal pass rewrote nothing, so `preserves` is trivial.
-/
import proofs.«111878_g2000403565215025_pallasbulk_1037_11_alg».proof.Defs
import proofs.«111878_g2000403565215025_pallasbulk_1037_11_alg».proof.Proof.Gen.Kernel
import proofs.«111878_g2000403565215025_pallasbulk_1037_11_alg».proof.Proof.Gen.Kernel.Frame
import proofs.«111878_g2000403565215025_pallasbulk_1037_11_alg».proof.Proof.Gen.KernelIdeal
import proofs.«111878_g2000403565215025_pallasbulk_1037_11_alg».proof.Proof.Gen.KernelIdeal.Frame
import proofs.«111878_g2000403565215025_pallasbulk_1037_11_alg».proof.Proof.Gen.ReferenceIdeal
import proofs.«111878_g2000403565215025_pallasbulk_1037_11_alg».proof.Proof.Gen.ReferenceIdeal.Frame
import proofs.«111878_g2000403565215025_pallasbulk_1037_11_alg».proof.Proof.Gen.Pre_finite_inputs
import proofs.«111878_g2000403565215025_pallasbulk_1037_11_alg».proof.Proof.KernelValue
import proofs.«111878_g2000403565215025_pallasbulk_1037_11_alg».proof.Proof.RefValue

noncomputable section

namespace Cert.Proof

open Idealize.ShloMosaic Idealize.SL.Sem

/-- The word-level kernel program runs and keeps its arguments: the generated frame. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- And the idealized reference, itself a program around one kernel. -/
theorem frame_referenceIdeal : Cert.frame_ReferenceIdeal := fun m ρ _ => Cert.ReferenceIdeal.Gen.frame m ρ

/-- The ideal pass rewrote no operation. -/
theorem preserves : Cert.preserves_Kernel_KernelIdeal := trivial

/-- Both idealized programs end with their result at the perceptron's outputs on the arguments, which agree. -/
theorem algebraic : Cert.algebraic_KernelIdeal_ReferenceIdeal := by
  intro m ρ m' ρ' _ hagree
  refine ⟨fun c => Cert.Mlp.logits (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), Cert.KernelIdeal.Hand.run m ρ, ?_⟩
  refine (θ_run Cert.ReferenceIdeal.defs _ _).mono (fun _ h c => ?_) (Cert.ReferenceIdeal.Hand.run m' ρ')
  obtain ⟨h0, h1, h2, h3, h4, h5⟩ := h c
  obtain ⟨g0, g1, g2, g3, g4⟩ := hagree c
  exact ⟨by rw [h0, g0, g1, g2, g3, g4], h1, h2, h3, h4, h5⟩

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
